-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2x2048x4096 .f32) (main_arg1 : FVec F S4096x4096 .f32) (main_arg2 : FVec F S4096x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S4096x4096, .bf16⟩
  | .hbm, ⟨10, _⟩ => ⟨S4096x4096, .f32⟩
  | .hbm, ⟨11, _⟩ => ⟨S2x2048x4096, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x1024, .f32⟩
  | .local _ .vmem, ⟨9, _⟩ => ⟨S2048x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x2048x4096_S4096x4096 : S2x2048x4096.ShapeCasts S4096x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  shapeCasts_S4096x4096_S2x2048x4096 : S4096x4096.ShapeCasts S2x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .bf16 = 32 ∨ (Rect.block (s := S4096x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .bf16 = 32 ∨ (Rect.block (s := S4096x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .bf16 = 32 ∨ (Rect.block (s := S4096x4096) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .f32 = 32 ∨ (Rect.block (s := S4096x4096) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S2x2048x4096, .f32⟩
  | .hbm, ⟨4, _⟩ => ⟨S2x2048x4096, .f32⟩
  | .hbm, ⟨5, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Pieces.lean ====
/-
  What the body leaves in the output block, in each of its two control cases, as a value.

  The body runs in one of two ways. At the first point of a K-sweep (the innermost grid coordinate is 0) it stores the
  zero block, reads it back, and stores the accumulating payload over it: the block ends at the payload of the four
  input blocks and the zero block. At every other point it reads the block the point before left and stores the
  accumulating payload of the four input blocks and that block. In both cases the last store covers the whole block,
  so what is read back afterwards is that store's value, and every load in it reads a whole buffer.
-/
import proofs.«137874_j19490561589765_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A POINT THAT CONTINUES A K-SWEEP leaves the accumulating payload of its input blocks and of what the block held. -/
theorem out_B (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S1024x512 .bf16) (harg5 : arg5.IsWhole)
    (arg6 : Memref sig .tc .vmem S1024x512 .bf16) (harg6 : arg6.IsWhole) (arg7 : Memref sig .tc .vmem S2048x1024 .f32) (harg7 : arg7.IsWhole)
    (hc0 : ¬cond0_0 i) (x0 x1 : Vec F S2048x512 .bf16) (x2 x3 : Vec F S1024x512 .bf16) (xo4 : Vec F S2048x1024 .f32) :
    out0_B_4 c i arg3 harg3 arg4 harg4 arg5 harg5 arg6 harg6 arg7 harg7 hc0 x0 x1 x2 x3 xo4 = k0_pay2 x0 x1 x2 x3 xo4 := by
  unfold out0_B_4
  rw [View.read_writes_eq_canon _ _ _ (cover0_B_4 c i arg3 harg3 arg4 harg4 arg5 harg5 arg6 harg6 arg7 harg7 hc0 x0 x1 x2 x3 xo4)]
  unfold kernelRun0_B
  dsimp only
  rw [View.canon_unit_zero hz]
  simp only [View.readAt_eq_ld, harg3.read_unread, harg4.read_unread, harg5.read_unread, harg6.read_unread, harg7.read_unread,
    View.ld_unit_zero (S := S2048x512) hz, View.ld_unit_zero (S := S1024x512) hz, View.ld_unit_zero (S := S2048x1024) hz]

/-- THE FIRST POINT OF A K-SWEEP leaves the accumulating payload of its input blocks and of the zero block. -/
theorem out_A (c : Dev nD) (i : grid0.Coords) (arg3 : Memref sig .tc .vmem S2048x512 .bf16) (harg3 : arg3.IsWhole)
    (arg4 : Memref sig .tc .vmem S2048x512 .bf16) (harg4 : arg4.IsWhole) (arg5 : Memref sig .tc .vmem S1024x512 .bf16) (harg5 : arg5.IsWhole)
    (arg6 : Memref sig .tc .vmem S1024x512 .bf16) (harg6 : arg6.IsWhole) (arg7 : Memref sig .tc .vmem S2048x1024 .f32) (harg7 : arg7.IsWhole)
    (hc0 : cond0_0 i) (x0 x1 : Vec F S2048x512 .bf16) (x2 x3 : Vec F S1024x512 .bf16) :
    out0_A_4 c i arg3 harg3 arg4 harg4 arg5 harg5 arg6 harg6 arg7 harg7 hc0 x0 x1 x2 x3 = k0_pay2 x0 x1 x2 x3 (k0_pay1 (F := F)) := by
  unfold out0_A_4
  rw [View.read_writes_eq_canon _ _ _ (cover0_A_4 c i arg3 harg3 arg4 harg4 arg5 harg5 arg6 harg6 arg7 harg7 hc0 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread,
    View.ld_unit_zero (S := S2048x512) hz, View.ld_unit_zero (S := S1024x512) hz, View.ld_unit_zero (S := S2048x1024) hz]

end Cert.KernelIdeal.Pieces

end
-- ==== Proof.LibMatmulNT.lean ====
/-
  A matrix product whose right operand is contracted on its LAST axis, read at an index, over the extended reals.

  For dimension numbers that contract the left operand's axis 1 with the right operand's axis 1, keep axis 0 of each,
  and have no batch axes — `[M, K] · [N, K] → [M, N]`, the product with the transposed right operand in which no
  transpose is ever formed — entry `(p, q)` of the product accumulated into the zero matrix is
  `∑ₖ lhs (p, k) * rhs (q, k)`. The contraction index, a multi-index with one axis, is its one coordinate; at result
  index `(p, q)` and contraction coordinate `k` the left operand is read at `(p, k)` and the right one at `(q, k)`.
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

/-- A coordinate of an index does not depend on how its axis number is spelt. -/
theorem coord_congr {S : Shape} (j : S.Idx) {a b : Nat} (ha : a < S.rank) (hb : b < S.rank) (h : a = b) :
    (j ⟨a, ha⟩).val = (j ⟨b, hb⟩).val := by subst h; rfl

variable {M K N : Nat} (d : DotDims ⟨2, ![M, K]⟩ ⟨2, ![N, K]⟩ ⟨2, ![M, N]⟩)
  (hlc : d.lhsContracting = [1]) (hrc : d.rhsContracting = [1])
  (hln : d.lhsNonContracting = [0]) (hrn : d.rhsNonContracting = [0])
  (hlb : d.lhsBatch = []) (hrb : d.rhsBatch = [])

include hln hlb in
/-- The left operand's kept axis is the result's axis 0: its coordinate there is the result's row. -/
theorem lhsIdx_kept (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact coord_congr j _ _ (by simp [hlb, hln])

include hln hrn hlb hrb in
/-- The right operand's kept axis is the result's axis 1 (it comes after the left operand's one kept axis): its
    coordinate there is the result's column. -/
theorem rhsIdx_kept (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  exact coord_congr j _ _ (by simp [hlb, hln, hrn])

include hlc in
/-- One axis is contracted, -/
theorem contr_rank : d.contr.rank = 1 := by rw [d.rank_contr, hlc]; rfl

include hlc in
/-- and its extent is the operands' shared inner extent. -/
theorem contr_size (h0 : 0 < d.contr.rank) : d.contr.size ⟨0, h0⟩ = K := by
  have h1 : 0 < d.lhsContracting.length := by rw [hlc]; exact Nat.one_pos
  refine (d.size_contr 0 h1).trans ?_
  have e : d.lhsContracting[0] = (1 : Fin (⟨2, ![M, K]⟩ : Shape).rank) := by simp [hlc]
  rw [e]
  rfl

include hlc hrc hln hrn hlb hrb in
/-- ENTRY `(p, q)` OF THE PRODUCT WITH THE TRANSPOSED RIGHT OPERAND, INTO THE ZERO MATRIX: `∑ₖ lhs (p, k) * rhs (q, k)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_kept d hln hlb (ix2 p q) _
    | ⟨1, _⟩ => exact (d.lhsIdx_val_of_single (cl := 1) hlc (ix2 p q) _).trans hk)
  have er : d.rhsIdx (ix2 p q) ((contrEquiv1 d K hr hs).symm k) = ix2 q k := funext fun a => Fin.ext (by
    match a with
    | ⟨0, _⟩ => exact rhsIdx_kept d hln hrn hlb hrb (ix2 p q) _
    | ⟨1, _⟩ => exact (d.rhsIdx_val_of_single (cr := 1) hrc (ix2 p q) _).trans hk)
  rw [el, er]

end Idealize.ShloMosaic.MatmulNT
-- ==== Proof.TileStep.lean ====
/-
  What one grid point adds to its output block.

  At a grid point the body holds four input blocks: `x0`, `x1` of shape [2048, 512] (a tile of the high and of the low
  part of the left matrix) and `x2`, `x3` of shape [1024, 512] (the same K-tile of the two weight matrices, stored with
  the contracted axis last). It forms three products that contract the last axis of both operands, each into a zero
  accumulator, adds them, and adds the result onto what the output block held. Over the extended reals every one of those
  products is the plain finite sum over the tile's 512 positions, so entry (p, q) of the stored block is

      xo (p, q) + ( ( Σₖ x0 (p,k)·x2 (q,k) + Σₖ x0 (p,k)·x3 (q,k) ) + Σₖ x1 (p,k)·x2 (q,k) ).

  The block the first point of a K-sweep stores before accumulating is the zero block.
-/
import proofs.«137874_j19490561589765_2_alg».proof.Proof.Gen.KernelIdeal.Skeleton
import proofs.«137874_j19490561589765_2_alg».proof.Proof.LibMatmulNT
import Idealize.ShloMosaic.Lib.Pipeline.Value
import Idealize.ShloMosaic.Lib.ValueIdx
import Idealize.ShloMosaic.PureOps.Ideal.Laws

noncomputable section

open scoped BigOperators

namespace Cert.KernelIdeal.TileStep

open Idealize.ShloMosaic Idealize.ShloMosaic.ValueIdx Cert.KernelIdeal Cert.KernelIdeal.Gen

/-- The three tile products of one grid point, at entry (p, q) of the output block. -/
def step (x0 x1 : FVec Ideal S2048x512 .bf16) (x2 x3 : FVec Ideal S1024x512 .bf16) (p : Fin 2048) (q : Fin 1024) : EReal :=
  ((∑ k : Fin 512, x0 (ix2 p k) * x2 (ix2 q k)) + ∑ k : Fin 512, x0 (ix2 p k) * x3 (ix2 q k))
    + ∑ k : Fin 512, x1 (ix2 p k) * x2 (ix2 q k)

/-- One product of the body: left [2048, 512], right [1024, 512], both contracted on their last axis, into zero. -/
theorem prod_apply (l : FVec Ideal S2048x512 .bf16) (r : FVec Ideal S1024x512 .bf16) (p : Fin 2048) (q : Fin 1024) :
    matmul dot_S2048x512_S1024x512_S2048x1024_1_1_0_0_n_n none l r (constant (F := Ideal) S2048x1024 .f32 0x00000000#32) (ix2 p q)
      = ∑ k : Fin 512, l (ix2 p k) * r (ix2 q k) :=
  MatmulNT.matmul_zero_apply dot_S2048x512_S1024x512_S2048x1024_1_1_0_0_n_n rfl rfl rfl rfl rfl rfl none l r p q

/-- THE ACCUMULATING STORE's value at (p, q): what the block held plus the point's three tile products. -/
theorem pay2_apply (x0 x1 : FVec Ideal S2048x512 .bf16) (x2 x3 : FVec Ideal S1024x512 .bf16)
    (xo : FVec Ideal S2048x1024 .f32) (p : Fin 2048) (q : Fin 1024) :
    k0_pay2 (F := Ideal) x0 x1 x2 x3 xo (ix2 p q) = xo (ix2 p q) + step x0 x1 x2 x3 p q := by
  unfold k0_pay2 step
  simp only [shapeCast_self]
  rw [addf_apply, addf_apply, addf_apply, prod_apply, prod_apply, prod_apply]

/-- THE RESETTING STORE's value: zero everywhere. -/
theorem pay1_apply (j : S2048x1024.Idx) : k0_pay1 (F := Ideal) j = 0 := by
  unfold k0_pay1
  exact Ideal.ofBits_zero_f32

end Cert.KernelIdeal.TileStep

end
-- ==== Proof.Entry.lean ====
/-
  The four arrays the kernel's grid reads, as it finds them, and a block of each read at an index.

  Before the grid starts the surrounding program has computed, from the arguments `x`, `wu`, `wl`:
    the flattened `x` (row b·2048 + s of a [4096, 4096] matrix), narrowed in format        — the left matrix's high part;
    the flattened `x` minus its narrowed-and-widened self, narrowed again                   — the left matrix's low part;
    `wu` and `wl`, narrowed in format                                                     — the two weight matrices.
  Over the extended reals a change of float format is the identity, so these are the flattened `x`, its difference
  with itself, `wu` and `wl`.

  The grid has 64 points, numbered t = (i·4 + j)·8 + k for i < 2, j < 4, k < 8. At point t the left matrix's windows
  hold rows i·2048 … and columns k·512 … of their arrays, the weight windows rows j·1024 … and columns k·512 …, and the
  output window rows i·2048 … and columns j·1024 …: an entry of a block sits at block index × block size + its
  coordinate inside the block, on each axis.
-/
import proofs.«137874_j19490561589765_2_alg».proof.Proof.Gen.KernelIdeal.Frame.Runs
import Idealize.ShloMosaic.Lib.Pipeline.Value
import Idealize.ShloMosaic.Lib.StableHlo.Run
import Idealize.ShloMosaic.Lib.ValueIdx

noncomputable section

namespace Cert.KernelIdeal.Entry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The arrays at region entry -/

/-- The flattened `x`. -/
def xh (c : Dev nD) : S4096x4096.Idx → EReal :=
  shapeCast S4096x4096 (m ((c : Thread nD τ).loc main_arg0)) Facts₀.shapeCasts_S2x2048x4096_S4096x4096

/-- Its difference with itself. -/
def xl (c : Dev nD) : S4096x4096.Idx → EReal := fun j => xh m c j - xh m c j

theorem V_xh (c : Dev nD) : (V m c main_v1 : S4096x4096.Idx → EReal) = xh m c := by
  show StableHlo.after hostOps0 (fun b => m (c, b)) (Proc.devRef .tc main_v1) = _
  after_results
  rfl

theorem V_xl (c : Dev nD) : (V m c main_v4 : S4096x4096.Idx → EReal) = xl m c := by
  show StableHlo.after hostOps0 (fun b => m (c, b)) (Proc.devRef .tc main_v4) = _
  after_results
  rfl

theorem V_wu (c : Dev nD) : (V m c main_v5 : S4096x4096.Idx → EReal) = m ((c : Thread nD τ).loc main_arg1) := by
  show StableHlo.after hostOps0 (fun b => m (c, b)) (Proc.devRef .tc main_v5) = _
  after_results
  rfl

theorem V_wl (c : Dev nD) : (V m c main_v6 : S4096x4096.Idx → EReal) = m ((c : Thread nD τ).loc main_arg2) := by
  show StableHlo.after hostOps0 (fun b => m (c, b)) (Proc.devRef .tc main_v6) = _
  after_results
  rfl

/-! ## Where each window's block sits at point t -/

/-- The printed index maps over the 64 points: block row and block column of every window. -/
theorem idx_facts : ∀ t : Fin cfg0.N,
    win0_0.index t (0 : Fin 2) = t.val / 32 ∧ win0_0.index t (1 : Fin 2) = t.val % 8
    ∧ win0_1.index t (0 : Fin 2) = t.val / 32 ∧ win0_1.index t (1 : Fin 2) = t.val % 8
    ∧ win0_2.index t (0 : Fin 2) = t.val / 8 % 4 ∧ win0_2.index t (1 : Fin 2) = t.val % 8
    ∧ win0_3.index t (0 : Fin 2) = t.val / 8 % 4 ∧ win0_3.index t (1 : Fin 2) = t.val % 8
    ∧ win0_4.index t (0 : Fin 2) = t.val / 32 ∧ win0_4.index t (1 : Fin 2) = t.val / 8 % 4 :=
  (by decide +kernel : ∀ t : Fin grid0.N, _)

/-- Window 0's block at point t, entry (p, kk): the high part at row (t/32)·2048 + p, column (t%8)·512 + kk. -/
theorem blk0 (c : Dev nD) (t : Fin cfg0.N) (p : Fin 2048) (kk : Fin 512) (r k : Fin 4096)
    (hr : r.val = t.val / 32 * 2048 + p.val) (hk : k.val = t.val % 8 * 512 + kk.val) :
    iblk m c 0 t (ix2 p kk) = xh m c (ix2 r k) := by
  rw [← V_xh m c]
  unfold iblk
  rw [View.read_apply]
  show (V m c main_v1 : S4096x4096.Idx → EReal) _ = (V m c main_v1 : S4096x4096.Idx → EReal) _
  refine congrArg (V m c main_v1 : S4096x4096.Idx → EReal) ?_
  obtain ⟨e0, e1, -⟩ := idx_facts t
  funext a; apply Fin.ext
  match a with
  | ⟨0, _⟩ => show win0_0.index t (0 : Fin 2) * 2048 + 1 * p.val = r.val; rw [e0, hr]; omega
  | ⟨1, _⟩ => show win0_0.index t (1 : Fin 2) * 512 + 1 * kk.val = k.val; rw [e1, hk]; omega

/-- Window 1's block: the low part, at the same place. -/
theorem blk1 (c : Dev nD) (t : Fin cfg0.N) (p : Fin 2048) (kk : Fin 512) (r k : Fin 4096)
    (hr : r.val = t.val / 32 * 2048 + p.val) (hk : k.val = t.val % 8 * 512 + kk.val) :
    iblk m c 1 t (ix2 p kk) = xl m c (ix2 r k) := by
  rw [← V_xl m c]
  unfold iblk
  rw [View.read_apply]
  show (V m c main_v4 : S4096x4096.Idx → EReal) _ = (V m c main_v4 : S4096x4096.Idx → EReal) _
  refine congrArg (V m c main_v4 : S4096x4096.Idx → EReal) ?_
  obtain ⟨-, -, e0, e1, -⟩ := idx_facts t
  funext a; apply Fin.ext
  match a with
  | ⟨0, _⟩ => show win0_1.index t (0 : Fin 2) * 2048 + 1 * p.val = r.val; rw [e0, hr]; omega
  | ⟨1, _⟩ => show win0_1.index t (1 : Fin 2) * 512 + 1 * kk.val = k.val; rw [e1, hk]; omega

/-- Window 2's block at point t, entry (q, kk): `wu` at row (t/8 % 4)·1024 + q, column (t%8)·512 + kk. -/
theorem blk2 (c : Dev nD) (t : Fin cfg0.N) (q : Fin 1024) (kk : Fin 512) (s k : Fin 4096)
    (hs : s.val = t.val / 8 % 4 * 1024 + q.val) (hk : k.val = t.val % 8 * 512 + kk.val) :
    iblk m c 2 t (ix2 q kk) = m ((c : Thread nD τ).loc main_arg1) (ix2 s k) := by
  rw [← V_wu m c]
  unfold iblk
  rw [View.read_apply]
  show (V m c main_v5 : S4096x4096.Idx → EReal) _ = (V m c main_v5 : S4096x4096.Idx → EReal) _
  refine congrArg (V m c main_v5 : S4096x4096.Idx → EReal) ?_
  obtain ⟨-, -, -, -, e0, e1, -⟩ := idx_facts t
  funext a; apply Fin.ext
  match a with
  | ⟨0, _⟩ => show win0_2.index t (0 : Fin 2) * 1024 + 1 * q.val = s.val; rw [e0, hs]; omega
  | ⟨1, _⟩ => show win0_2.index t (1 : Fin 2) * 512 + 1 * kk.val = k.val; rw [e1, hk]; omega

/-- Window 3's block: `wl`, at the same place. -/
theorem blk3 (c : Dev nD) (t : Fin cfg0.N) (q : Fin 1024) (kk : Fin 512) (s k : Fin 4096)
    (hs : s.val = t.val / 8 % 4 * 1024 + q.val) (hk : k.val = t.val % 8 * 512 + kk.val) :
    iblk m c 3 t (ix2 q kk) = m ((c : Thread nD τ).loc main_arg2) (ix2 s k) := by
  rw [← V_wl m c]
  unfold iblk
  rw [View.read_apply]
  show (V m c main_v6 : S4096x4096.Idx → EReal) _ = (V m c main_v6 : S4096x4096.Idx → EReal) _
  refine congrArg (V m c main_v6 : S4096x4096.Idx → EReal) ?_
  obtain ⟨-, -, -, -, -, -, e0, e1, -⟩ := idx_facts t
  funext a; apply Fin.ext
  match a with
  | ⟨0, _⟩ => show win0_3.index t (0 : Fin 2) * 1024 + 1 * q.val = s.val; rw [e0, hs]; omega
  | ⟨1, _⟩ => show win0_3.index t (1 : Fin 2) * 512 + 1 * kk.val = k.val; rw [e1, hk]; omega

end Cert.KernelIdeal.Entry

end
-- ==== Proof.LibMergeRows.lean ====
/-
  Merging the two leading axes of a rank-3 array into one, and splitting them again, read at an index.

  A row-major re-layout keeps every element's position. Position of `(b, n, j)` in `[A, B, K]` is
  `(b · B + n) · K + j`; position of `(r, j)` in `[R, K]` is `r · K + j`. So with `r = b · B + n` the cast of an
  `[A, B, K]` array to `[R, K]` reads at `(r, j)` the operand at `(b, n, j)`, and the cast back reads at `(b, n, j)`
  the operand at `(r, j)`.
-/
import Idealize.ShloMosaic.Lib.Pipeline.Value
import Idealize.ShloMosaic.Lib.ValueIdx

namespace Cert.Lib.MergeRows

open Idealize.ShloMosaic Idealize.ShloMosaic.ValueIdx

variable {α : Type}

/-- `[A, B, K]` cast to `[R, K]`: entry `(r, j)` with `r = b · B + n` is the operand's entry `(b, n, j)`. -/
theorem merge_apply {A B K R : ℕ} (x : (⟨3, ![A, B, K]⟩ : Shape).Idx → α)
    (h : (⟨3, ![A, B, K]⟩ : Shape).ShapeCasts ⟨2, ![R, K]⟩) (b : Fin A) (n : Fin B) (j : Fin K) (r : Fin R)
    (hr : r.val = b.val * B + n.val) : shapeCast ⟨2, ![R, K]⟩ x h (ix2 r j) = x (ix3 b n j) :=
  shapeCast_apply x h _ _ (by
    rw [Shape.rowMajor_val_three, Shape.rowMajor_val_two]
    show (b.val * B + n.val) * K + j.val = r.val * K + j.val
    rw [hr])

/-- `[R, K]` cast to `[A, B, K]`: entry `(b, n, j)` is the operand's entry `(r, j)` with `r = b · B + n`. -/
theorem split_apply {A B K R : ℕ} (x : (⟨2, ![R, K]⟩ : Shape).Idx → α)
    (h : (⟨2, ![R, K]⟩ : Shape).ShapeCasts ⟨3, ![A, B, K]⟩) (b : Fin A) (n : Fin B) (j : Fin K) (r : Fin R)
    (hr : r.val = b.val * B + n.val) : shapeCast ⟨3, ![A, B, K]⟩ x h (ix3 b n j) = x (ix2 r j) :=
  shapeCast_apply x h _ _ (by
    rw [Shape.rowMajor_val_three, Shape.rowMajor_val_two]
    show r.val * K + j.val = (b.val * B + n.val) * K + j.val
    rw [hr])

end Cert.Lib.MergeRows
-- ==== Proof.DualSpec.lean ====
/-
  The function both programs compute, as one function of the three argument arrays, and the algebra that joins the
  kernel's arrangement of it to the reference's.

  THE RESULT. For `x` of shape [2, 2048, 4096] and two weight matrices `wu`, `wl` of shape [4096, 4096] (the contracted
  axis last), entry (b, s, o) of the result is

      Σ_d x (b, s, d) · wu (o, d)  +  Σ_d x (b, s, d) · wl (o, d).

  THE KERNEL'S ARRANGEMENT. The kernel flattens `x` to a matrix `xh` of shape [4096, 4096] (row b·2048 + s), forms the
  difference `xl = xh − xh`, and sweeps the contracted axis in 8 tiles of 512 positions; tile j adds

      ( Σ_kk xh (r, j·512+kk)·wu (s, j·512+kk) + Σ_kk xh (r, …)·wl (s, …) ) + Σ_kk xl (r, …)·wu (s, …)

  onto entry (r, s). Adding the eight tiles one after the other from zero gives

      ( Σ_k xh (r,k)·wu (s,k) + Σ_k xh (r,k)·wl (s,k) ) + Σ_k xl (r,k)·wu (s,k)

  because a sum over 4096 positions is the sum of its eight tiles' sums and addition on the extended reals is
  commutative and associative (no finiteness is needed for that). The third sum vanishes when every entry of `x` is a
  real number: then `xl` is zero everywhere, and zero times any extended real is zero. On an infinite entry
  `xh − xh` would not be zero, so this is the one place the finiteness of `x` is used.
-/
import Idealize.ShloMosaic.PureOps.Ideal
import Idealize.ShloMosaic.Lib.ValueIdx
import Idealize.ShloMosaic.Lib.Pipeline.Value
import proofs.«137874_j19490561589765_2_alg».proof.Proof.LibMergeRows

noncomputable section

open scoped BigOperators

namespace Cert.DualSpec

open Idealize.ShloMosaic Idealize.ShloMosaic.ValueIdx

/-- The matrices' shape, and the shape of `x` and of the result. -/
abbrev Sq : Shape := ⟨2, ![4096, 4096]⟩
abbrev Cube : Shape := ⟨3, ![2, 2048, 4096]⟩

/-! ## A sum over 4096 positions is the sum of its eight tiles' sums -/

/-- Position kk of tile j. -/
def tileIx (j : Fin 8) (kk : Fin 512) : Fin 4096 := ⟨j.val * 512 + kk.val, by have := j.isLt; have := kk.isLt; omega⟩

/-- The same position for any natural tile number (wrapped, so that it is defined for every number; the eight real tiles
    do not wrap). -/
def tk (j : ℕ) (kk : Fin 512) : Fin 4096 := ⟨(j * 512 + kk.val) % 4096, Nat.mod_lt _ (by norm_num)⟩

theorem tk_val (j : Fin 8) (kk : Fin 512) : tk j.val kk = tileIx j kk :=
  Fin.ext (Nat.mod_eq_of_lt (by have := j.isLt; have := kk.isLt; omega))

theorem sum_tiles {M : Type*} [AddCommMonoid M] (g : Fin 4096 → M) :
    ∑ j : Fin 8, ∑ kk : Fin 512, g (tileIx j kk) = ∑ k : Fin 4096, g k := by
  rw [← Fintype.sum_prod_type' (fun j kk => g (tileIx j kk))]
  refine Fintype.sum_equiv (finProdFinEquiv (m := 8) (n := 512)) _ _ (fun x => congrArg g (Fin.ext ?_))
  show x.1.val * 512 + x.2.val = x.2.val + 512 * x.1.val
  omega

/-! ## The kernel's arrangement -/

/-- Row r of `l` against row s of `w`. -/
def rowDot (l w : Sq.Idx → EReal) (r s : Fin 4096) : EReal := ∑ k : Fin 4096, l (ix2 r k) * w (ix2 s k)

/-- What tile j adds onto entry (r, s). -/
def tile (xh xl wu wl : Sq.Idx → EReal) (r s : Fin 4096) (j : ℕ) : EReal :=
  ((∑ kk : Fin 512, xh (ix2 r (tk j kk)) * wu (ix2 s (tk j kk))) + ∑ kk : Fin 512, xh (ix2 r (tk j kk)) * wl (ix2 s (tk j kk)))
    + ∑ kk : Fin 512, xl (ix2 r (tk j kk)) * wu (ix2 s (tk j kk))

/-- What the eight tiles leave at entry (r, s). -/
def swept (xh xl wu wl : Sq.Idx → EReal) (r s : Fin 4096) : EReal :=
  (rowDot xh wu r s + rowDot xh wl r s) + rowDot xl wu r s

/-- THE EIGHT TILES ADD UP to the three whole-row products. -/
theorem sum_tile (xh xl wu wl : Sq.Idx → EReal) (r s : Fin 4096) :
    ∑ j ∈ Finset.range 8, tile xh xl wu wl r s j = swept xh xl wu wl r s := by
  rw [Finset.sum_range]
  unfold tile swept rowDot
  simp only [tk_val]
  rw [Finset.sum_add_distrib, Finset.sum_add_distrib,
    sum_tiles (fun k => xh (ix2 r k) * wu (ix2 s k)), sum_tiles (fun k => xh (ix2 r k) * wl (ix2 s k)),
    sum_tiles (fun k => xl (ix2 r k) * wu (ix2 s k))]

/-- With a left matrix that is zero everywhere a row product is zero. -/
theorem rowDot_zero (w : Sq.Idx → EReal) (r s : Fin 4096) : rowDot (fun _ => 0) w r s = 0 := by
  unfold rowDot
  simp only [zero_mul, Finset.sum_const_zero]

/-! ## The result -/

/-- THE RESULT, entry by entry. -/
def G (x : Cube.Idx → EReal) (wu wl : Sq.Idx → EReal) : Cube.Idx → EReal := fun i =>
  (∑ k : Fin 4096, x (ix3 (i 0) (i 1) k) * wu (ix2 (i 2) k)) + ∑ k : Fin 4096, x (ix3 (i 0) (i 1) k) * wl (ix2 (i 2) k)

/-- The kernel's final array as a function of the arrays its grid reads: the swept form over the flattened `x` and the
    difference of the flattened `x` with itself, laid out again as [2, 2048, 4096]. -/
def kernelResult (x : Cube.Idx → EReal) (wu wl : Sq.Idx → EReal) (h1 : Cube.ShapeCasts Sq) (h2 : Sq.ShapeCasts Cube) :
    Cube.Idx → EReal :=
  shapeCast Cube (fun i2 : Sq.Idx =>
    swept (shapeCast Sq x h1) (fun j => shapeCast Sq x h1 j - shapeCast Sq x h1 j) wu wl (i2 0) (i2 1)) h2

/-- THE LAW. When every entry of `x` is a real number the kernel's final array is the result. -/
theorem kernelResult_eq_G (x : Cube.Idx → EReal) (wu wl : Sq.Idx → EReal) (hx : ∀ i, ∃ a : ℝ, x i = (a : EReal))
    (h1 : Cube.ShapeCasts Sq) (h2 : Sq.ShapeCasts Cube) : kernelResult x wu wl h1 h2 = G x wu wl := by
  funext i
  obtain ⟨b, s, o, rfl⟩ : ∃ (b : Fin 2) (s : Fin 2048) (o : Fin 4096), i = ix3 b s o := ⟨i 0, i 1, i 2, eq_ix3 i⟩
  have hr : b.val * 2048 + s.val < 4096 := by have := b.isLt; have := s.isLt; omega
  unfold kernelResult
  rw [Cert.Lib.MergeRows.split_apply _ h2 b s o ⟨b.val * 2048 + s.val, hr⟩ rfl]
  have hrow : ∀ k : Fin 4096, shapeCast Sq x h1 (ix2 ⟨b.val * 2048 + s.val, hr⟩ k) = x (ix3 b s k) := fun k =>
    Cert.Lib.MergeRows.merge_apply x h1 b s k ⟨b.val * 2048 + s.val, hr⟩ rfl
  have hzero : (fun j : Sq.Idx => shapeCast Sq x h1 j - shapeCast Sq x h1 j) = fun _ => 0 := by
    funext j
    obtain ⟨r, k, rfl⟩ : ∃ (r k : Fin 4096), j = ix2 r k := ⟨j 0, j 1, eq_ix2 j⟩
    have hb : r.val / 2048 < 2 := by have := r.isLt; omega
    have hs : r.val % 2048 < 2048 := Nat.mod_lt _ (by norm_num)
    rw [Cert.Lib.MergeRows.merge_apply x h1 ⟨r.val / 2048, hb⟩ ⟨r.val % 2048, hs⟩ k r (by
      show r.val = r.val / 2048 * 2048 + r.val % 2048; omega)]
    obtain ⟨a, ha⟩ := hx (ix3 ⟨r.val / 2048, hb⟩ ⟨r.val % 2048, hs⟩ k)
    rw [ha, ← EReal.coe_sub, sub_self, EReal.coe_zero]
  show swept _ _ wu wl ⟨b.val * 2048 + s.val, hr⟩ o = _
  rw [hzero]
  unfold swept G
  rw [rowDot_zero, add_zero]
  unfold rowDot
  simp only [hrow]

end Cert.DualSpec

end
-- ==== Proof.Accum.lean ====
/-
  What the output block holds after each grid point: the sum of the K-tiles swept so far.

  The output block of cell (i, j) stays in place while the innermost coordinate k runs from 0 to 7: point t = (i·4+j)·8 + k
  starts from zero when k = 0 and from what point t − 1 left otherwise, and adds tile k's three products. So after point t
  entry (p, q) of the block — entry (r, s) of the whole matrix with r = i·2048 + p, s = j·1024 + q — holds the sum of
  tiles 0 … k of that entry, added one after the other: by induction on the point. (Point t − 1 is in the same cell as t
  whenever k ≠ 0, so the row r and the column s do not change along a sweep.)
-/
import proofs.«137874_j19490561589765_2_alg».proof.Proof.Pieces
import proofs.«137874_j19490561589765_2_alg».proof.Proof.TileStep
import proofs.«137874_j19490561589765_2_alg».proof.Proof.Entry
import proofs.«137874_j19490561589765_2_alg».proof.Proof.DualSpec

noncomputable section

open scoped BigOperators

namespace Cert.KernelIdeal.Accum

open Idealize.ShloMosaic Idealize.ShloMosaic.TcCoe Idealize.ShloMosaic.ValueIdx Idealize.SL.Sem
open Cert.KernelIdeal Cert.KernelIdeal.Gen Cert.KernelIdeal.TileStep Cert.KernelIdeal.Entry Cert.DualSpec

variable (m : (ℓ : Loc nD τ sig) → Buf (Elt Ideal) ℓ)

/-- The two weight matrices, as launched. -/
abbrev wu (c : Dev nD) : S4096x4096.Idx → EReal := m ((c : Thread nD τ).loc main_arg1)
abbrev wl (c : Dev nD) : S4096x4096.Idx → EReal := m ((c : Thread nD τ).loc main_arg2)

/-- After the first point of a sweep: the accumulating payload over the zero block. -/
theorem at_first (c : Dev nD) (t : Fin cfg0.N) (h0 : t.val % 8 = 0) :
    outsAt0 m c t.val t.isLt
      = k0_pay2 (F := Ideal) (iblk m c 0 t) (iblk m c 1 t) (iblk m c 2 t) (iblk m c 3 t) (k0_pay1 (F := Ideal)) :=
  (outsAt0_A m c t h0).trans
    (Pieces.out_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
      (iblk m c 0 t) (iblk m c 1 t) (iblk m c 2 t) (iblk m c 3 t))

/-- After a later point of a sweep: the accumulating payload over what the point before left. -/
theorem at_later (c : Dev nD) (t : Fin cfg0.N) (h0 : ¬t.val % 8 = 0) :
    outsAt0 m c t.val t.isLt
      = k0_pay2 (F := Ideal) (iblk m c 0 t) (iblk m c 1 t) (iblk m c 2 t) (iblk m c 3 t)
          (outsAt0 m c (t.val - 1) (Nat.lt_of_le_of_lt (Nat.sub_le _ _) t.isLt)) :=
  (outsAt0_B m c t h0).trans
    (Pieces.out_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (iblk m c 0 t) (iblk m c 1 t) (iblk m c 2 t) (iblk m c 3 t)
      (outsAt0 m c (t.val - 1) (Nat.lt_of_le_of_lt (Nat.sub_le _ _) t.isLt)))

/-- The three products of point n, at entry (p, q) of its block, are tile n % 8's share of entry (r, s) of the matrix. -/
theorem step_at (c : Dev nD) (n : ℕ) (h : n < cfg0.N) (p : Fin 2048) (q : Fin 1024) (r s : Fin 4096)
    (hr : r.val = n / 32 * 2048 + p.val) (hs : s.val = n / 8 % 4 * 1024 + q.val) :
    step (iblk m c 0 ⟨n, h⟩) (iblk m c 1 ⟨n, h⟩) (iblk m c 2 ⟨n, h⟩) (iblk m c 3 ⟨n, h⟩) p q
      = tile (xh m c) (xl m c) (wu m c) (wl m c) r s (n % 8) := by
  have hk : ∀ kk : Fin 512, (tk (n % 8) kk).val = n % 8 * 512 + kk.val := fun kk =>
    Nat.mod_eq_of_lt (by have := kk.isLt; omega)
  have e0 : ∀ kk : Fin 512, iblk m c 0 ⟨n, h⟩ (ix2 p kk) = xh m c (ix2 r (tk (n % 8) kk)) := fun kk =>
    blk0 m c ⟨n, h⟩ p kk r (tk (n % 8) kk) hr (hk kk)
  have e1 : ∀ kk : Fin 512, iblk m c 1 ⟨n, h⟩ (ix2 p kk) = xl m c (ix2 r (tk (n % 8) kk)) := fun kk =>
    blk1 m c ⟨n, h⟩ p kk r (tk (n % 8) kk) hr (hk kk)
  have e2 : ∀ kk : Fin 512, iblk m c 2 ⟨n, h⟩ (ix2 q kk) = wu m c (ix2 s (tk (n % 8) kk)) := fun kk =>
    blk2 m c ⟨n, h⟩ q kk s (tk (n % 8) kk) hs (hk kk)
  have e3 : ∀ kk : Fin 512, iblk m c 3 ⟨n, h⟩ (ix2 q kk) = wl m c (ix2 s (tk (n % 8) kk)) := fun kk =>
    blk3 m c ⟨n, h⟩ q kk s (tk (n % 8) kk) hs (hk kk)
  unfold step tile
  simp only [e0, e1, e2, e3]

/-- THE RUNNING SUM. After point n, entry (p, q) of the output block holds tiles 0 … n % 8 of entry (r, s) of the matrix. -/
theorem outs_eq (c : Dev nD) : ∀ (n : ℕ) (h : n < cfg0.N) (p : Fin 2048) (q : Fin 1024) (r s : Fin 4096),
    r.val = n / 32 * 2048 + p.val → s.val = n / 8 % 4 * 1024 + q.val →
    outsAt0 m c n h (ix2 p q) = ∑ j ∈ Finset.range (n % 8 + 1), tile (xh m c) (xl m c) (wu m c) (wl m c) r s j := by
  intro n
  induction n with
  | zero =>
    intro h p q r s hr hs
    have e := congrFun (at_first m c ⟨0, h⟩ rfl) (ix2 p q)
    refine (e.trans (pay2_apply _ _ _ _ _ p q)).trans ?_
    rw [pay1_apply, zero_add, step_at m c 0 h p q r s hr hs]
    simp
  | succ n ih =>
    intro h p q r s hr hs
    by_cases h0 : (n + 1) % 8 = 0
    · have e := congrFun (at_first m c ⟨n + 1, h⟩ h0) (ix2 p q)
      refine (e.trans (pay2_apply _ _ _ _ _ p q)).trans ?_
      rw [pay1_apply, zero_add, step_at m c (n + 1) h p q r s hr hs, h0]
      simp
    · have e := congrFun (at_later m c ⟨n + 1, h⟩ h0) (ix2 p q)
      have e' := pay2_apply (iblk m c 0 ⟨n + 1, h⟩) (iblk m c 1 ⟨n + 1, h⟩) (iblk m c 2 ⟨n + 1, h⟩) (iblk m c 3 ⟨n + 1, h⟩)
        (outsAt0 m c n (Nat.lt_of_succ_lt h)) p q
      refine (e.trans e').trans ?_
      rw [ih (Nat.lt_of_succ_lt h) p q r s (by omega) (by omega), step_at m c (n + 1) h p q r s hr hs,
        show (n + 1) % 8 = n % 8 + 1 by omega]
      exact (Finset.sum_range_succ _ (n % 8 + 1)).symm

end Cert.KernelIdeal.Accum

end
-- ==== Proof.OutputArray.lean ====
/-
  The matrix the grid leaves in its output array.

  The output block of cell (i, j) is written back once, after the last point of its K-sweep (k = 7). By then it holds, at
  entry (p, q), the sum of all eight tiles of entry (r, s) = (i·2048 + p, j·1024 + q) — the three whole-row products of
  the specification's swept form. The 2 × 4 cells' blocks of 2048 × 1024 entries tile the 4096 × 4096 matrix: entry
  (r, s) lies in the block of cell (r / 2048, s / 1024). So the array ends holding the swept form everywhere.
-/
import proofs.«137874_j19490561589765_2_alg».proof.Proof.Accum
import proofs.«137874_j19490561589765_2_alg».proof.Proof.Gen.KernelIdeal.Frame

noncomputable section

open scoped BigOperators

namespace Cert.KernelIdeal.OutputArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Entry Cert.KernelIdeal.Accum Cert.DualSpec

variable (m : (ℓ : Loc nD τ sig) → Buf (Elt Ideal) ℓ)

/-- The matrix the grid leaves: the swept form of the arrays it reads, entry by entry. -/
def grid (c : Dev nD) : S4096x4096.Idx → EReal := fun i => swept (xh m c) (xl m c) (wu m c) (wl m c) (i 0) (i 1)

/-- WHAT A WRITE-BACK WRITES: at the last point of a sweep, the block of `grid` at that point's place. -/
theorem flushed_eq (c : Dev nD) (t : Fin cfg0.N) (hf : (cfg0.win 4).flush t = true) :
    (dats m 0 c).flushed 4 t = ((cfg0.win 4).blk t).view.read (Elt Ideal) (grid m c) := by
  have hN : t.val < 64 := lt_of_lt_of_eq t.isLt (show cfg0.N = 64 from N_0)
  have h7 : t.val % 8 = 7 := (flush0_4 t).mp hf
  show (cfg0.win 4).cut (grid0.coords t) ((dats m 0 c).after 4 t) = _
  rw [after0_4]
  funext y
  obtain ⟨p, q, rfl⟩ : ∃ (p : Fin 2048) (q : Fin 1024), y = ix2 p q := ⟨y 0, y 1, eq_ix2 y⟩
  rw [View.read_apply]
  have hr : t.val / 32 * 2048 + p.val < 4096 := by have := p.isLt; omega
  have hs : t.val / 8 % 4 * 1024 + q.val < 4096 := by have := q.isLt; omega
  obtain ⟨-, -, -, -, -, -, -, -, e0, e1⟩ := idx_facts t
  have hemb : ((cfg0.win 4).blk t).view.emb (ix2 p q)
      = (ix2 (⟨t.val / 32 * 2048 + p.val, hr⟩ : Fin 4096) (⟨t.val / 8 % 4 * 1024 + q.val, hs⟩ : Fin 4096) : S4096x4096.Idx) := by
    funext a; apply Fin.ext
    match a with
    | ⟨0, _⟩ => show win0_4.index t (0 : Fin 2) * 2048 + 1 * p.val = t.val / 32 * 2048 + p.val; rw [e0]; omega
    | ⟨1, _⟩ => show win0_4.index t (1 : Fin 2) * 1024 + 1 * q.val = t.val / 8 % 4 * 1024 + q.val; rw [e1]; omega
  rw [hemb]
  show outsAt0 m c t.val t.isLt (ix2 p q)
    = swept (xh m c) (xl m c) (wu m c) (wl m c) ⟨t.val / 32 * 2048 + p.val, hr⟩ ⟨t.val / 8 % 4 * 1024 + q.val, hs⟩
  rw [outs_eq m c t.val t.isLt p q ⟨t.val / 32 * 2048 + p.val, hr⟩ ⟨t.val / 8 % 4 * 1024 + q.val, hs⟩ rfl rfl, h7]
  exact sum_tile _ _ _ _ _ _

/-- THE BLOCKS TILE THE MATRIX: entry (r, s) is in the block written back at the last point of cell (r / 2048, s / 1024). -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 64 := N_0
  obtain ⟨t, ht⟩ : ∃ t : Fin cfg0.N, t.val = ((i 0).val / 2048 * 4 + (i 1).val / 1024) * 8 + 7 :=
    ⟨⟨((i 0).val / 2048 * 4 + (i 1).val / 1024) * 8 + 7, by rw [hN]; omega⟩, rfl⟩
  refine ⟨t, (flush0_4 t).mpr (by rw [ht]; omega), ?_⟩
  obtain ⟨-, -, -, -, -, -, -, -, e0, e1⟩ := idx_facts t
  show i ∈ ((View.whole main_v7).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    rw [e0, ht]; omega
  | ⟨1, _⟩ =>
    show win0_4.index t (1 : Fin 2) * 1024 ≤ (i 1).val ∧ (i 1).val < win0_4.index t (1 : Fin 2) * 1024 + 1024
    rw [e1, ht]; omega

/-- THE ARRAY AFTER THE GRID holds `grid`. -/
theorem final (c : Dev nD) : (dats m 0 c).arrAt 4 cfg0.N = grid m c :=
  (dats m 0 c).arrAt_eq_of_cover 4 (grid m c) (flushed_eq m c) cover

end Cert.KernelIdeal.OutputArray

end
-- ==== Proof.KernelRun.lean ====
/-
  The idealized kernel's run, read: its result array as a function of the arguments.

  After the grid the program lays the 4096 × 4096 matrix the grid left out again as [2, 2048, 4096] (row b·2048 + s of
  the matrix becomes entry (b, s, ·)), and that is its result. The matrix is the swept form over the flattened `x`, the
  difference of the flattened `x` with itself, and the two weight matrices; so the result is the specification's
  `kernelResult` of the three arguments, and, when every entry of `x` is a real number, the specification's `G`.
-/
import proofs.«137874_j19490561589765_2_alg».proof.Proof.OutputArray
import Idealize.ShloMosaic.Lib.StableHlo.Run

noncomputable section

namespace Cert.KernelIdeal.KernelRun

open Idealize.ShloMosaic Idealize.ShloMosaic.TcCoe Idealize.ShloMosaic.ValueIdx Idealize.SL.Sem
open Cert.KernelIdeal Cert.KernelIdeal.Gen Cert.KernelIdeal.Entry Cert.KernelIdeal.Accum Cert.KernelIdeal.OutputArray Cert.DualSpec

variable (m : (ℓ : Loc nD τ sig) → Buf (Elt Ideal) ℓ) (ρ : Dev nD → PrngReg)

/-- The result: the matrix the grid left, laid out as [2, 2048, 4096]. -/
def result (c : Dev nD) : S2x2048x4096.Idx → EReal :=
  shapeCast S2x2048x4096 (grid m c) Facts₀.shapeCasts_S4096x4096_S2x2048x4096

/-- It is the specification's form of the kernel's result, of the three arguments as launched. -/
theorem result_is (c : Dev nD) :
    result m c = kernelResult (m ((c : Thread nD τ).loc main_arg0)) (m ((c : Thread nD τ).loc main_arg1))
      (m ((c : Thread nD τ).loc main_arg2)) Facts₀.shapeCasts_S2x2048x4096_S4096x4096 Facts₀.shapeCasts_S4096x4096_S2x2048x4096 := rfl

/-- So, when every entry of `x` is a real number, it is `G`. -/
theorem result_eq_G (c : Dev nD) (hx : ∀ i, ∃ a : ℝ, m ((c : Thread nD τ).loc main_arg0) i = (a : EReal)) :
    result m c = G (m ((c : Thread nD τ).loc main_arg0)) (m ((c : Thread nD τ).loc main_arg1)) (m ((c : Thread nD τ).loc main_arg2)) :=
  (result_is m c).trans (kernelResult_eq_G _ _ _ hx _ _)

/-- What the one operation after the grid leaves in the result buffer. -/
theorem tail_eq (c : Dev nD) : Pipeline.afterTail₀ cfgs (dats m) 0 (V0 m) [hostOps1] c main_v8 = result m c := by
  unfold Pipeline.afterTail₀
  show StableHlo.after hostOps1 _ (Proc.devRef .tc main_v8) = _
  after_results
  unfold result
  refine congrArg (fun a : S4096x4096.Idx → EReal => shapeCast S2x2048x4096 a Facts₀.shapeCasts_S4096x4096_S2x2048x4096) ?_
  exact (Pipeline.withArrays_arr spec0 launch0.win.arr_inj c _ _ 4).trans (final m c)

/-- THE RUN: every weakly fair execution terminates with the result buffer at `result` and the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefSide.lean ====
/-
  The reference's result is the function `G` of the specification.

  The reference contracts the last axis of `x` [2, 2048, 4096] with the last axis of each weight matrix [4096, 4096]
  and adds the two products. Read at entry (b, s, o), each product is the sum over d of x (b, s, d) times the weight's
  entry (o, d); their sum is `G`'s entry.
-/
import proofs.«137874_j19490561589765_2_alg».proof.Proof.Gen.ReferenceIdeal.Read
import proofs.«137874_j19490561589765_2_alg».proof.Proof.DualSpec

noncomputable section

open scoped BigOperators

namespace Cert.ReferenceIdeal.RefValue

open Idealize.ShloMosaic Idealize.ShloMosaic.ValueIdx Cert.ReferenceIdeal Cert.ReferenceIdeal.Gen Cert.ReferenceIdeal.Read

theorem ref_eq_G (x : S2x2048x4096.Idx → EReal) (wu wl : S4096x4096.Idx → EReal) :
    val_main_v2 (F := Ideal) x wu wl = Cert.DualSpec.G x wu wl := by
  funext i
  obtain ⟨b, s, o, rfl⟩ : ∃ (b : Fin 2) (s : Fin 2048) (o : Fin 4096), i = ix3 b s o := ⟨i 0, i 1, i 2, eq_ix3 i⟩
  have el0 : ∀ k : Fin 4096, lidx_main_v0 (ix3 b s o) k = ix3 b s k := fun k => funext fun a => Fin.ext (by
    match a with | ⟨0, _⟩ => rfl | ⟨1, _⟩ => rfl | ⟨2, _⟩ => rfl)
  have er0 : ∀ k : Fin 4096, ridx_main_v0 (ix3 b s o) k = ix2 o k := fun k => funext fun a => Fin.ext (by
    match a with | ⟨0, _⟩ => rfl | ⟨1, _⟩ => rfl)
  have el1 : ∀ k : Fin 4096, lidx_main_v1 (ix3 b s o) k = ix3 b s k := fun k => funext fun a => Fin.ext (by
    match a with | ⟨0, _⟩ => rfl | ⟨1, _⟩ => rfl | ⟨2, _⟩ => rfl)
  have er1 : ∀ k : Fin 4096, ridx_main_v1 (ix3 b s o) k = ix2 o k := fun k => funext fun a => Fin.ext (by
    match a with | ⟨0, _⟩ => rfl | ⟨1, _⟩ => rfl)
  rw [val_main_v2_apply, val_main_v0_apply, val_main_v1_apply]
  simp only [el0, er0, el1, er1, Ideal.addf_def]
  rfl

end Cert.ReferenceIdeal.RefValue

end
-- ==== Proof.Finite.lean ====
/-
  What the precondition says of `x`: every entry is a real number.

  The precondition is the conjunction, over the three arguments, of "every entry's absolute value is below +∞". For the
  first argument: the conjunction being true makes its first conjunct true; that conjunct is an "and" over all entries,
  so it is true at every entry; and an extended real whose absolute value max(v, −v) is below +∞ is neither +∞ nor −∞,
  hence a real.
-/
import proofs.«137874_j19490561589765_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs

instance : Subsingleton S_.Idx := ⟨fun a b => funext fun d => d.elim0⟩

/-- An extended real whose absolute value compares below the +∞ pattern is a real number. -/
theorem real_of_abs_lt (v : EReal) (h : Ideal.cmp .olt (max v (-v)) (Ideal.ofBits .f32 0x7F800000#32) = 1#1) :
    ∃ a : ℝ, v = (a : EReal) := by
  have htop : Ideal.ofBits .f32 0x7F800000#32 = ⊤ := by simp [Ideal.ofBits, Ideal.ieee]
  rw [htop] at h
  have hlt : max v (-v) < ⊤ := by
    by_contra hc
    simp [Ideal.cmp, hc] at h
  induction v using EReal.rec with
  | bot => simp at hlt
  | coe a => exact ⟨a, rfl⟩
  | top => simp at hlt

variable [Facts]

/-- Under the precondition every entry of the first argument is a real number. -/
theorem x_real (x : FVec Ideal S2x2048x4096 .f32) (wu wl : FVec Ideal S4096x4096 .f32)
    (h : fn (F := Ideal) x wu wl = fun _ => 1#1) (i : S2x2048x4096.Idx) : ∃ a : ℝ, x i = (a : EReal) := by
  have h0 := congrFun h ix0
  dsimp only [fn] at h0
  obtain ⟨h12, -⟩ := IntOp.andi_eq_one.1 h0
  obtain ⟨h1, -⟩ := IntOp.andi_eq_one.1 h12
  exact real_of_abs_lt (x i) (Host.reduce_andi_all _ _ _ _ ix0 h1 i)

end Cert.Pre_finite_inputs.Finite

end
-- ==== Proof.lean ====
/-
  The proof of `Cert.Claim`: a linear layer whose weight is given as the sum of an upper and a lower matrix.

  THE TWO PROGRAMS. The reference computes, for `x` of shape [2, 2048, 4096] and weights `wu`, `wl` of shape
  [4096, 4096], entry (b, s, o) = Σ_d x (b,s,d)·wu (o,d) + Σ_d x (b,s,d)·wl (o,d). The kernel flattens `x` to a
  4096 × 4096 matrix, splits it into a high part (the matrix narrowed in float format) and a low part (the matrix minus
  its high part, narrowed), and for each of 2 × 4 output cells sweeps the contracted axis in 8 tiles, adding per tile
  high·wu + high·wl + low·wu into the cell's block, which starts a sweep at zero.

  WHY THEY AGREE OVER THE EXTENDED REALS. A change of float format is the identity there, so the high part is the
  flattened `x` itself and the low part is its difference with itself. Adding the eight tiles of a cell one after the
  other gives three whole-row products (a sum over 4096 positions is the sum of its eight tiles' sums; addition is
  commutative and associative). The low part's product vanishes because every entry of `x` is a real number under the
  precondition — so the difference is zero — and zero times anything is zero; this is the one use of the precondition.
  What remains is the reference's two products, read through the flattening.

  THE MODULES. DualSpec: the result `G`, the tiling of a sum, the law. TileStep, Pieces, Entry, Accum, OutputArray,
  KernelRun: the kernel's result array, from one grid point's stores up to the whole run. RefSide: the reference's result
  is `G`. Finite: the precondition makes every entry of `x` real. The ideal pass rewrote nothing, so the kernel's
  idealization is its own text read over the extended reals and that conjunct is trivial.
-/
import proofs.«137874_j19490561589765_2_alg».proof.Defs
import proofs.«137874_j19490561589765_2_alg».proof.Proof.Gen.Kernel
import proofs.«137874_j19490561589765_2_alg».proof.Proof.Gen.Kernel.Skeleton
import proofs.«137874_j19490561589765_2_alg».proof.Proof.Gen.Kernel.Launch
import proofs.«137874_j19490561589765_2_alg».proof.Proof.Gen.Kernel.Points
import proofs.«137874_j19490561589765_2_alg».proof.Proof.Gen.Kernel.Frame
import proofs.«137874_j19490561589765_2_alg».proof.Proof.Gen.KernelIdeal
import proofs.«137874_j19490561589765_2_alg».proof.Proof.Gen.KernelIdeal.Skeleton
import proofs.«137874_j19490561589765_2_alg».proof.Proof.Gen.KernelIdeal.Launch
import proofs.«137874_j19490561589765_2_alg».proof.Proof.Gen.KernelIdeal.Points
import proofs.«137874_j19490561589765_2_alg».proof.Proof.Gen.KernelIdeal.Frame
import proofs.«137874_j19490561589765_2_alg».proof.Proof.Gen.ReferenceIdeal
import proofs.«137874_j19490561589765_2_alg».proof.Proof.Gen.Pre_finite_inputs
import proofs.«137874_j19490561589765_2_alg».proof.Proof.Gen.ReferenceIdeal.Run
import proofs.«137874_j19490561589765_2_alg».proof.Proof.Gen.ReferenceIdeal.Read
import proofs.«137874_j19490561589765_2_alg».proof.Proof.KernelRun
import proofs.«137874_j19490561589765_2_alg».proof.Proof.RefSide
import proofs.«137874_j19490561589765_2_alg».proof.Proof.Finite
import Idealize.ShloMosaic.Adequacy
import Idealize.ShloMosaic.Init

noncomputable section

namespace Cert.Proof

open Idealize.ShloMosaic Idealize.ShloMosaic.TcCoe Idealize.SL.Sem

/-- The three frames: the two kernels' are their generated frame runs; the reference has no kernel, and its frame is its
    run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at `G` of arguments that agree: the kernel by its run and the law (every entry of `x` is real
    under the precondition), the reference by its run read one operation at a time. -/
theorem algebraic : Cert.algebraic_KernelIdeal_ReferenceIdeal := by
  intro m ρ m' ρ' hpre hagree
  refine ⟨fun c => Cert.DualSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KernelRun.run m ρ)
    exact Cert.KernelIdeal.KernelRun.result_eq_G m c (fun i => Cert.Pre_finite_inputs.Finite.x_real _ _ _ (hpre c) i)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v2_eq, Cert.ReferenceIdeal.RefValue.ref_eq_G, (hagree c).1,
      (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
